-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x3x8192 : Shape := ⟨3, ![2, 3, 8192]⟩
abbrev S2x8192x1 : Shape := ⟨3, ![2, 8192, 1]⟩
abbrev S_ : Shape := ⟨0, ![]⟩
abbrev S1x1024x3 : Shape := ⟨3, ![1, 1024, 3]⟩
abbrev S1x3x1024 : Shape := ⟨3, ![1, 3, 1024]⟩
abbrev S1x1024x1 : Shape := ⟨3, ![1, 1024, 1]⟩
abbrev S1024x1 : Shape := ⟨2, ![1024, 1]⟩
abbrev S1024x3 : Shape := ⟨2, ![1024, 3]⟩
abbrev S1x3x256 : Shape := ⟨3, ![1, 3, 256]⟩
abbrev S3x256 : Shape := ⟨2, ![3, 256]⟩
abbrev S1x256 : Shape := ⟨2, ![1, 256]⟩
abbrev S1024x256 : Shape := ⟨2, ![1024, 256]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x3x8192, .f32⟩
  | .hbm, ⟨3, _⟩ => ⟨S2x8192x1, .f32⟩
  | .hbm, ⟨4, _⟩ => ⟨S_, .f32⟩
  | .hbm, ⟨5, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x1, .f32⟩
  | .local _ .vmem, ⟨5, _⟩ => ⟨S1x1024x1, .f32⟩
  | .local _ .vmem, ⟨6, _⟩ => ⟨S1024x1, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v145 : BitVec 1 := Scalar.cmpi .eq arg2 c7_i32
  let v146 : BitVec 32 := Scalar.extui v145
  let c0_i32_27 : BitVec 32 := 0#32
  let v147 : BitVec 1 := Scalar.cmpi .ne v146 c0_i32_27
  v147

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S2x8192x3_S2x3x8192_0_2_1 : S2x8192x3.Transposes [0, 2, 1] S2x3x8192
  reducesTo_S2x8192x1_S_d0_1_2 : S2x8192x1.ReducesTo [0, 1, 2] S_
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  inb_S1x3x1024_S1x3x256_0_0_0 : ∀ a, (![0, 0, 0] : Fin 3 → Nat) a + S1x3x256.size a ≤ S1x3x1024.size a
  h_S1x3x256 : 0 < S1x3x256.numel
  shapeCasts_S1x3x256_S3x256 : S1x3x256.ShapeCasts S3x256
  slices_S3x256_o0_0_S1x256 : S3x256.Slices ![0, 0] S1x256
  slices_S3x256_o1_0_S1x256 : S3x256.Slices ![1, 0] S1x256
  slices_S3x256_o2_0_S1x256 : S3x256.Slices ![2, 0] S1x256
  broadcasts_S1024x1_S1024x256 : S1024x1.Broadcasts S1024x256
  broadcasts_S1x256_S1024x256 : S1x256.Broadcasts S1024x256
  reduces_S1024x256_S1024 : S1024x256.Reduces [1] S1024
  shapeCasts_S1024_S1024x1 : S1024.ShapeCasts S1024x1
  inb_S1x3x1024_S1x3x256_0_0_256 : ∀ a, (![0, 0, 256] : Fin 3 → Nat) a + S1x3x256.size a ≤ S1x3x1024.size a
  inb_S1x3x1024_S1x3x256_0_0_512 : ∀ a, (![0, 0, 512] : Fin 3 → Nat) a + S1x3x256.size a ≤ S1x3x1024.size a
  inb_S1x3x1024_S1x3x256_0_0_768 : ∀ a, (![0, 0, 768] : Fin 3 → Nat) a + S1x3x256.size a ≤ S1x3x1024.size a
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S2x8192x3.size a
  hwx0_0 : ∀ i : grid0.Coords, EltTy.bits .f32 = 32 ∨ (Rect.block (s := S2x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S2x3x8192.size a
  hwx0_1 : ∀ i : grid0.Coords, EltTy.bits .f32 = 32 ∨ (Rect.block (s := S2x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S2x8192x1.size a
  hwx0_2 : ∀ i : grid0.Coords, EltTy.bits .f32 = 32 ∨ (Rect.block (s := S2x8192x1) S1x1024x1.size (cc0_transform_2 i) (hinb0_2 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S2x8192x8192, .f32⟩
  | .hbm, ⟨22, _⟩ => ⟨S_, .f32⟩
  | .hbm, ⟨23, _⟩ => ⟨S2x8192, .f32⟩
  | .hbm, ⟨24, _⟩ => ⟨S_, .f32⟩
  | .hbm, ⟨25, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192_S_d0_1 : S2x8192.ReducesTo [0, 1] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Pieces.lean ====
/-
  What one run of the kernel body leaves, as values of what it loads.

  The body at a grid point (batch `b`, query tile, key tile) holds a block of 1024 queries (`x0`, 1024 × 3), a block
  of 1024 keys stored coordinate-major (`x1`, 3 × 1024) and a column of 1024 running minima (the carried scratch).
  It reads the keys in four chunks of 256 lanes, and for each chunk lowers every query's running minimum by the
  smallest clamped squared distance to a key of the chunk: `tileMin x0 x1 acc` below is that column after the four
  chunks, as one term of the loads. At the first key tile the column starts from the `+∞` vector the body has just
  stored; at the later ones from what the previous point left; at the last key tile the body also stores the square
  root of the column, reshaped to the output block.

  These equations hold for any float values: they only say which stores cover the buffers and which loads each store's
  payload reads.
-/
import proofs.«180767_j31044023616212_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The column of running minima after one key tile: the four 256-lane chunks of the key block `x1`, taken in
    order, each lowering the column `acc` by the chunk's smallest clamped squared distance to each query of `x0`. -/
def tileMin (x0 : Vec F S1x1024x3 .f32) (x1 : Vec F S1x3x1024 .f32) (acc : Vec F S1024x1 .f32) : Vec F S1024x1 .f32 :=
  k0_pay1
    (k0_pay18 (k0_pay5 x0) (k0_pay6 x0) (k0_pay7 x0) (k0_pay8 x0)
      (k0_pay10 (k0_pay5 x0) (k0_pay6 x0) (k0_pay7 x0) (k0_pay8 x0) acc
        (k0_pay9 x0 (View.ld x1 (Rect.unit ![0, 0, 0] ![1, 3, 256] inb_S1x3x1024_S1x3x256_0_0_0)))
        (View.ld x1 (Rect.unit ![0, 0, 256] ![1, 3, 256] inb_S1x3x1024_S1x3x256_0_0_256)))
      (k0_pay14 (View.ld x1 (Rect.unit ![0, 0, 512] ![1, 3, 256] inb_S1x3x1024_S1x3x256_0_0_512)))
      (k0_pay15 (View.ld x1 (Rect.unit ![0, 0, 512] ![1, 3, 256] inb_S1x3x1024_S1x3x256_0_0_512)))
      (k0_pay16 (k0_pay5 x0) (View.ld x1 (Rect.unit ![0, 0, 512] ![1, 3, 256] inb_S1x3x1024_S1x3x256_0_0_512)))
      (k0_pay17 (k0_pay6 x0) (View.ld x1 (Rect.unit ![0, 0, 512] ![1, 3, 256] inb_S1x3x1024_S1x3x256_0_0_512)))
      (View.ld x1 (Rect.unit ![0, 0, 768] ![1, 3, 256] inb_S1x3x1024_S1x3x256_0_0_768)))

/-- At a key tile that is neither the first nor the last, the scratch ends at the tile's minima over what it held. -/
theorem scratch_B (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : ¬cond0_1 i) (x0 : Vec F S1x1024x3 .f32) (x1 : Vec F S1x3x1024 .f32) (xs0 : Vec F S1024x1 .f32) :
    sout0_B_0 c i arg3 harg3 arg4 harg4 arg5 harg5 arg6 harg6 hc0 hc1 x0 x1 xs0 = tileMin x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz2]
  simp only [View.readAt_eq_ld, harg3.read_unread, harg4.read_unread, harg6.read_unread, View.ld_unit_zero (S := S1x1024x3) hz3, View.ld_unit_zero (S := S1024x1) hz2]
  rfl

/-- At the last key tile the scratch ends the same way, -/
theorem scratch_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i) (x0 : Vec F S1x1024x3 .f32) (x1 : Vec F S1x3x1024 .f32) (xs0 : Vec F S1024x1 .f32) :
    sout0_C_0 c i arg3 harg3 arg4 harg4 arg5 harg5 arg6 harg6 hc0 hc1 x0 x1 xs0 = tileMin x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz2]
  simp only [View.readAt_eq_ld, harg3.read_unread, harg4.read_unread, harg6.read_unread, View.ld_unit_zero (S := S1x1024x3) hz3, View.ld_unit_zero (S := S1024x1) hz2]
  rfl

/-- and the output block is the square root of that column, reshaped: the body reads back the column it has just
    stored. -/
theorem out_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole) (hc0 : ¬cond0_0 i) (hc1 : cond0_1 i) (x0 : Vec F S1x1024x3 .f32) (x1 : Vec F S1x3x1024 .f32) (xs0 : Vec F S1024x1 .f32) :
    out0_C_2 c i arg3 harg3 arg4 harg4 arg5 harg5 arg6 harg6 hc0 hc1 x0 x1 xs0 = k0_pay2 (tileMin x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz3, View.readCov_unit_zero (S := S1024x1) _ hz2]
  simp only [View.readAt_eq_ld, harg3.read_unread, harg4.read_unread, harg6.read_unread, View.ld_unit_zero (S := S1x1024x3) hz3, View.ld_unit_zero (S := S1024x1) hz2]
  rfl

/-- At the first key tile the body first stores the `+∞` vector into the scratch and reads it back: the scratch ends
    at the tile's minima over `+∞`. -/
theorem scratch_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole) (hc0 : cond0_0 i) (hc1 : ¬cond0_1 i) (x0 : Vec F S1x1024x3 .f32) (x1 : Vec F S1x3x1024 .f32) :
    sout0_A_0 c i arg3 harg3 arg4 harg4 arg5 harg5 arg6 harg6 hc0 hc1 x0 x1 = tileMin x0 x1 (k0_pay3 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1) hz2, View.readCov_unit_zero (S := S1024x1) _ hz2]
  simp only [View.readAt_eq_ld, harg3.read_unread, harg4.read_unread, View.ld_unit_zero (S := S1x1024x3) hz3, View.ld_unit_zero (S := S1024x1) hz2]
  rfl

end Cert.KernelIdeal.Pieces

end
-- ==== Proof.Nearest.lean ====
/-
  What both programs compute, as one function of the two point sets, on the extended reals.

  Two batches of 8192 points of 3 coordinates each, `a` (the queries) and `s` (the keys). For a query `n` and a key `k`
  of batch `b` the clamped squared distance is `d2 = max ((|a_n|² + |s_k|²) - 2 · ⟨a_n, s_k⟩) 0`, the squared norms
  and the inner product written as three-term sums in the order `(x·x + y·y) + z·z`. The nearest-neighbour distance
  of the query is the square root of the minimum of `d2` over all 8192 keys, and the result is the sum of these
  distances over the 2 · 8192 queries, added to the zero word the summation starts from. The words `2.0` and `0.0`
  are kept as the binary words both programs print; neither is ever evaluated here.

  A minimum over a finite family is carried by its universal property: `c` is below it exactly when `c` is below
  every member (`le_rowMin`); two extended reals with the same lower bounds are equal.
-/
import Idealize.ShloMosaic.Lib.ValueIdx
import Idealize.ShloMosaic.PureOps.Ideal.Laws

noncomputable section

open scoped BigOperators

namespace Cert.Chamfer

open Idealize.ShloMosaic Idealize.ShloMosaic.ValueIdx

/-- A point set: 2 batches of 8192 points of 3 coordinates, as extended reals. -/
abbrev Pts : Type := (⟨3, ![2, 8192, 3]⟩ : Shape).Idx → EReal

/-- The word of `2.0`, as both programs print it. -/
def two : EReal := Ideal.ofBits .f32 0x40000000#32
/-- The word of `0.0`, as both programs print it. -/
def zero : EReal := Ideal.ofBits .f32 0x00000000#32

/-- The squared norm of point `n` of batch `b`: `(x·x + y·y) + z·z`. -/
def nsq (a : Pts) (b : Fin 2) (n : Fin 8192) : EReal :=
  a (ix3 b n (0 : Fin 3)) * a (ix3 b n (0 : Fin 3)) + a (ix3 b n (1 : Fin 3)) * a (ix3 b n (1 : Fin 3))
    + a (ix3 b n (2 : Fin 3)) * a (ix3 b n (2 : Fin 3))

/-- The inner product of query `n` and key `k` of batch `b`: `(x·x' + y·y') + z·z'`. -/
def dotp (a s : Pts) (b : Fin 2) (n k : Fin 8192) : EReal :=
  a (ix3 b n (0 : Fin 3)) * s (ix3 b k (0 : Fin 3)) + a (ix3 b n (1 : Fin 3)) * s (ix3 b k (1 : Fin 3))
    + a (ix3 b n (2 : Fin 3)) * s (ix3 b k (2 : Fin 3))

/-- The clamped squared distance between query `n` and key `k` of batch `b`. -/
def d2 (a s : Pts) (b : Fin 2) (n k : Fin 8192) : EReal :=
  max (nsq a b n + nsq s b k - two * dotp a s b n k) zero

/-- The smallest clamped squared distance from query `n` to any key of its batch. -/
def rowMin (a s : Pts) (b : Fin 2) (n : Fin 8192) : EReal :=
  Finset.univ.fold min ⊤ (fun k : Fin 8192 => d2 a s b n k)

/-- The distance from query `n` to its nearest key. -/
def nearest (a s : Pts) (b : Fin 2) (n : Fin 8192) : EReal := Ideal.sqrt (rowMin a s b n)

/-- The sum of the nearest-key distances over every query of both batches, from the zero word. -/
def total (a s : Pts) : EReal := zero + ∑ b : Fin 2, ∑ n : Fin 8192, nearest a s b n

/-- An extended real is below the row's minimum exactly when it is below every clamped squared distance of the row. -/
theorem le_rowMin (a s : Pts) (b : Fin 2) (n : Fin 8192) (c : EReal) :
    c ≤ rowMin a s b n ↔ ∀ k : Fin 8192, c ≤ d2 a s b n k := by
  unfold rowMin
  rw [Finset.le_fold_min]
  exact ⟨fun h k => h.2 k (Finset.mem_univ k), fun h => ⟨le_top, fun k _ => h k⟩⟩

/-- An extended real with the lower bounds of the row's minimum is the row's minimum. -/
theorem eq_rowMin (a s : Pts) (b : Fin 2) (n : Fin 8192) (v : EReal)
    (h : ∀ c : EReal, c ≤ v ↔ ∀ k : Fin 8192, c ≤ d2 a s b n k) : v = rowMin a s b n :=
  eq_of_forall_le_iff fun c => (h c).trans (le_rowMin a s b n c).symm

/-- A rank-3 index set whose last axis has one coordinate is the product of its first two coordinate ranges … -/
def idxEquiv3u {n0 n1 : Nat} : (⟨3, ![n0, n1, 1]⟩ : Shape).Idx ≃ Fin n0 × Fin n1 where
  toFun i := (i 0, i 1)
  invFun p := ix3 p.1 p.2 (0 : Fin 1)
  left_inv i := by
    funext d
    match d with
    | ⟨0, _⟩ => rfl
    | ⟨1, _⟩ => rfl
    | ⟨2, _⟩ => exact (Subsingleton.elim _ _ : (0 : Fin 1) = i 2)
  right_inv _ := rfl

/-- … so a sum over it is the double sum over those two coordinates. -/
theorem sum_idx3u {M : Type*} [AddCommMonoid M] {n0 n1 : Nat} (f : (⟨3, ![n0, n1, 1]⟩ : Shape).Idx → M) :
    ∑ i, f i = ∑ p : Fin n0, ∑ q : Fin n1, f (ix3 p q (0 : Fin 1)) := by
  rw [← Equiv.sum_comp (idxEquiv3u (n0 := n0) (n1 := n1)).symm f, Fintype.sum_prod_type]
  rfl

end Cert.Chamfer

end
-- ==== Proof.LibColumns.lean ====
/-
  Columns, and the minimum of a matrix's rows kept as a column, on the extended reals.

  A vector of `a` entries stored as a column `[a, 1]` has entry `i` in row `i`; a column `[a, 1]` broadcast to a matrix
  `[a, b]` repeats, along row `p`, the column's entry in row `p`. A minimum reduction of a matrix `[a, b]` over its second
  axis is, in row `p`, the fold of `min` from the accumulator's value over the `b` entries of that row; started from the
  word of `+∞`, which is `⊤`, it is the greatest lower bound of the row, so an extended real is below it exactly when it
  is below every entry of the row. That is how the minimum is used: by its lower bounds, never by its value.
-/
import Idealize.ShloMosaic.Lib.ValueIdx
import Idealize.ShloMosaic.Lib.ValueLayout
import Idealize.ShloMosaic.PureOps.Ideal.Laws

noncomputable section

namespace Cert.Lib.Columns

open Idealize.ShloMosaic Idealize.ShloMosaic.ValueIdx

variable {α : Type}

/-- A vector of `a` entries cast to a column `[a, 1]` reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` of a matrix with column `l` put back on the dropped axis is `(p, l)`. -/
theorem lift_row {a b : ℕ} (h : (⟨2, ![a, b]⟩ : Shape).Reduces [1] (⟨1, ![a]⟩ : Shape)) (p : Fin a)
    (l : Fin ((⟨2, ![a, b]⟩ : Shape).size 1)) : h.lift (ix1 p) l = ix2 p (⟨l.val, l.isLt⟩ : Fin b) := by
  funext c; apply Fin.ext
  match c with
  | ⟨0, _⟩ => rfl
  | ⟨1, _⟩ => rfl

/-- At the ideal values a minimum reduction over ONE axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` is the top of the extended reals. -/
theorem ofBits_inf_f32 : Ideal.ofBits .f32 0x7F800000#32 = (⊤ : EReal) := by simp [Ideal.ofBits, Ideal.ieee]

/-- The minimum of each row of a matrix, folded from `+∞` and stored as a column, by its lower bounds: an extended
    real is below the entry of row `p` exactly when it is below every entry of that row. -/
theorem le_rowMin_col {a b : ℕ} (v : FVec Ideal ⟨2, ![a, b]⟩ .f32) (h : (⟨2, ![a, b]⟩ : Shape).Reduces [1] (⟨1, ![a]⟩ : Shape))
    (hφ : FKind.Formats .f32) (hacc : (0x7F800000#32 : BitVec 32) = FKind.minimumf.neutral .f32 hφ)
    (hc : (⟨1, ![a]⟩ : Shape).ShapeCasts ⟨2, ![a, 1]⟩) (p : Fin a) (u : Fin 1) (c : EReal) :
    c ≤ (shapeCast ⟨2, ![a, 1]⟩ (multiReduction (F := Ideal) .minimumf [1] ⟨1, ![a]⟩ v 0x7F800000#32 h hφ hacc) hc (ix2 p u) : EReal)
      ↔ ∀ l : Fin b, c ≤ (v (ix2 p l) : EReal) := by
  rw [shapeCast_a_a1_apply, multiReduction_minimumf_single, Ideal.ofBits_def, ofBits_inf_f32, Finset.le_fold_min]
  constructor
  · intro hh l
    have := hh.2 (⟨l.val, l.isLt⟩ : Fin ((⟨2, ![a, b]⟩ : Shape).size 1)) (Finset.mem_univ _)
    rw [Function.comp_apply, lift_row] at this
    exact this
  · intro hh
    refine ⟨le_top, fun l _ => ?_⟩
    rw [Function.comp_apply, lift_row]
    exact hh _

end Cert.Lib.Columns

end
-- ==== Proof.TileMin.lean ====
/-
  One key tile, read at a query row, on the extended reals.

  `Pieces.tileMin x0 x1 acc` is the column of 1024 running minima after the body has gone through the four 256-lane
  chunks of a key block. Read at query row `r` it is the minimum of what the column held at `r` and of the 1024 clamped
  squared distances `dblk x0 x1 r j` between query row `r` of the query block `x0` (1024 × 3) and key lane `j` of the
  key block `x1` (3 × 1024): each chunk contributes the minimum over its 256 lanes, folded from `+∞`, and lane `l` of
  chunk `q` is lane `256 q + l` of the block. The minimum is stated by its lower bounds.
-/
import proofs.«180767_j31044023616212_2_alg».proof.Proof.Pieces
import proofs.«180767_j31044023616212_2_alg».proof.Proof.Nearest
import proofs.«180767_j31044023616212_2_alg».proof.Proof.LibColumns
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.Lib.Columns

/-- The squared norm of query row `r` of a query block: `(x·x + y·y) + z·z`. -/
def qn (x0 : Vec Ideal S1x1024x3 .f32) (r : Fin 1024) : EReal :=
  x0 (ix3 (0 : Fin 1) r (0 : Fin 3)) * x0 (ix3 (0 : Fin 1) r (0 : Fin 3))
    + x0 (ix3 (0 : Fin 1) r (1 : Fin 3)) * x0 (ix3 (0 : Fin 1) r (1 : Fin 3))
    + x0 (ix3 (0 : Fin 1) r (2 : Fin 3)) * x0 (ix3 (0 : Fin 1) r (2 : Fin 3))

/-- The squared norm of key lane `j` of a key block, stored coordinate-major. -/
def kn (x1 : Vec Ideal S1x3x1024 .f32) (j : Fin 1024) : EReal :=
  x1 (ix3 (0 : Fin 1) (0 : Fin 3) j) * x1 (ix3 (0 : Fin 1) (0 : Fin 3) j)
    + x1 (ix3 (0 : Fin 1) (1 : Fin 3) j) * x1 (ix3 (0 : Fin 1) (1 : Fin 3) j)
    + x1 (ix3 (0 : Fin 1) (2 : Fin 3) j) * x1 (ix3 (0 : Fin 1) (2 : Fin 3) j)

/-- The inner product of query row `r` and key lane `j`. -/
def ip (x0 : Vec Ideal S1x1024x3 .f32) (x1 : Vec Ideal S1x3x1024 .f32) (r j : Fin 1024) : EReal :=
  x0 (ix3 (0 : Fin 1) r (0 : Fin 3)) * x1 (ix3 (0 : Fin 1) (0 : Fin 3) j)
    + x0 (ix3 (0 : Fin 1) r (1 : Fin 3)) * x1 (ix3 (0 : Fin 1) (1 : Fin 3) j)
    + x0 (ix3 (0 : Fin 1) r (2 : Fin 3)) * x1 (ix3 (0 : Fin 1) (2 : Fin 3) j)

/-- The clamped squared distance between query row `r` and key lane `j` of the two blocks. -/
def dblk (x0 : Vec Ideal S1x1024x3 .f32) (x1 : Vec Ideal S1x3x1024 .f32) (r j : Fin 1024) : EReal :=
  max (qn x0 r + kn x1 j - Cert.Chamfer.two * ip x0 x1 r j) Cert.Chamfer.zero

/-! ## One chunk of 256 key lanes -/

/-- Row `d` of a chunk, as the body slices it out of the chunk cast to a matrix. -/
abbrev row0 {F : FTy → Type} [FloatOps F] (y : Vec F S1x3x256 .f32) : FVec F S1x256 .f32 :=
  extractStridedSlice S1x256 ![0, 0] (shapeCast S3x256 y shapeCasts_S1x3x256_S3x256) slices_S3x256_o0_0_S1x256
abbrev row1 {F : FTy → Type} [FloatOps F] (y : Vec F S1x3x256 .f32) : FVec F S1x256 .f32 :=
  extractStridedSlice S1x256 ![1, 0] (shapeCast S3x256 y shapeCasts_S1x3x256_S3x256) slices_S3x256_o1_0_S1x256
abbrev row2 {F : FTy → Type} [FloatOps F] (y : Vec F S1x3x256 .f32) : FVec F S1x256 .f32 :=
  extractStridedSlice S1x256 ![2, 0] (shapeCast S3x256 y shapeCasts_S1x3x256_S3x256) slices_S3x256_o2_0_S1x256

/-- The 1024 × 256 matrix of clamped squared distances the body forms for one chunk `y` of keys, from the three
    coordinate columns `v5`, `v6`, `v7` of the queries and the column `v12` of their squared norms. -/
def chunkD {F : FTy → Type} [FloatOps F] (v5 v6 v7 v12 : FVec F S1024x1 .f32) (y : Vec F S1x3x256 .f32) : FVec F S1024x256 .f32 :=
  maximumf
    (subf
      (addf (broadcastTo S1024x256 v12 broadcasts_S1024x1_S1024x256)
        (broadcastTo S1024x256 (addf (addf (mulf (row0 y) (row0 y)) (mulf (row1 y) (row1 y))) (mulf (row2 y) (row2 y)))
          broadcasts_S1x256_S1024x256))
      (mulf (broadcast S1024x256 (Scalar.ofBits .f32 0x40000000#32))
        (addf
          (addf
            (mulf (broadcastTo S1024x256 v5 broadcasts_S1024x1_S1024x256) (broadcastTo S1024x256 (row0 y) broadcasts_S1x256_S1024x256))
            (mulf (broadcastTo S1024x256 v6 broadcasts_S1024x1_S1024x256) (broadcastTo S1024x256 (row1 y) broadcasts_S1x256_S1024x256)))
          (mulf (broadcastTo S1024x256 v7 broadcasts_S1024x1_S1024x256) (broadcastTo S1024x256 (row2 y) broadcasts_S1x256_S1024x256)))))
    (broadcast S1024x256 (Scalar.ofBits .f32 0x00000000#32))

/-- The column of row minima of a 1024 × 256 matrix, folded from `+∞`. -/
def colMin {F : FTy → Type} [FloatOps F] (v : FVec F S1024x256 .f32) : FVec F S1024x1 .f32 :=
  shapeCast S1024x1 (multiReduction .minimumf [1] S1024 v 0x7F800000#32 reduces_S1024x256_S1024 (.inl rfl) rfl) shapeCasts_S1024_S1024x1

/-- The four chunks of a key block. -/
abbrev chunk0 {F : FTy → Type} [FloatOps F] (x1 : Vec F S1x3x1024 .f32) : Vec F S1x3x256 .f32 :=
  View.ld x1 (Rect.unit ![0, 0, 0] ![1, 3, 256] inb_S1x3x1024_S1x3x256_0_0_0)
abbrev chunk1 {F : FTy → Type} [FloatOps F] (x1 : Vec F S1x3x1024 .f32) : Vec F S1x3x256 .f32 :=
  View.ld x1 (Rect.unit ![0, 0, 256] ![1, 3, 256] inb_S1x3x1024_S1x3x256_0_0_256)
abbrev chunk2 {F : FTy → Type} [FloatOps F] (x1 : Vec F S1x3x1024 .f32) : Vec F S1x3x256 .f32 :=
  View.ld x1 (Rect.unit ![0, 0, 512] ![1, 3, 256] inb_S1x3x1024_S1x3x256_0_0_512)
abbrev chunk3 {F : FTy → Type} [FloatOps F] (x1 : Vec F S1x3x1024 .f32) : Vec F S1x3x256 .f32 :=
  View.ld x1 (Rect.unit ![0, 0, 768] ![1, 3, 256] inb_S1x3x1024_S1x3x256_0_0_768)

/-- The column after a key tile is the column before it lowered, chunk by chunk, by the chunk's row minima: the body's
    payloads unfold to this term. -/
theorem tileMin_eq {F : FTy → Type} [FloatOps F] (x0 : Vec F S1x1024x3 .f32) (x1 : Vec F S1x3x1024 .f32) (acc : Vec F S1024x1 .f32) :
    Pieces.tileMin x0 x1 acc
      = shapeCast S1024x1
          (minimumf
            (minimumf
              (minimumf
                (minimumf acc (colMin (chunkD (k0_pay5 x0) (k0_pay6 x0) (k0_pay7 x0) (k0_pay8 x0) (chunk0 x1))))
                (colMin (chunkD (k0_pay5 x0) (k0_pay6 x0) (k0_pay7 x0) (k0_pay8 x0) (chunk1 x1))))
              (colMin (chunkD (k0_pay5 x0) (k0_pay6 x0) (k0_pay7 x0) (k0_pay8 x0) (chunk2 x1))))
            (colMin (chunkD (k0_pay5 x0) (k0_pay6 x0) (k0_pay7 x0) (k0_pay8 x0) (chunk3 x1))))
          shapeCasts_S1024x1_S1024x1 := rfl

/-! ## The pieces read at an index -/

/-- Coordinate column 0 of the query block, at row `r`. -/
theorem pay5_at (x0 : Vec Ideal S1x1024x3 .f32) (r : Fin 1024) :
    k0_pay5 (F := Ideal) x0 (ix2 r (0 : Fin 1)) = x0 (ix3 (0 : Fin 1) r (0 : Fin 3)) :=
  (slice2_axis1_apply 0 _ slices_S1024x3_o0_0_S1024x1 r (0 : Fin 1) (0 : Fin 3) rfl).trans
    (shapeCast_1ab_ab_apply x0 shapeCasts_S1x1024x3_S1024x3 r (0 : Fin 3))

/-- Coordinate column 1. -/
theorem pay6_at (x0 : Vec Ideal S1x1024x3 .f32) (r : Fin 1024) :
    k0_pay6 (F := Ideal) x0 (ix2 r (0 : Fin 1)) = x0 (ix3 (0 : Fin 1) r (1 : Fin 3)) :=
  (slice2_axis1_apply 1 _ slices_S1024x3_o0_1_S1024x1 r (0 : Fin 1) (1 : Fin 3) rfl).trans
    (shapeCast_1ab_ab_apply x0 shapeCasts_S1x1024x3_S1024x3 r (1 : Fin 3))

/-- Coordinate column 2. -/
theorem pay7_at (x0 : Vec Ideal S1x1024x3 .f32) (r : Fin 1024) :
    k0_pay7 (F := Ideal) x0 (ix2 r (0 : Fin 1)) = x0 (ix3 (0 : Fin 1) r (2 : Fin 3)) :=
  (slice2_axis1_apply 2 _ slices_S1024x3_o0_2_S1024x1 r (0 : Fin 1) (2 : Fin 3) rfl).trans
    (shapeCast_1ab_ab_apply x0 shapeCasts_S1x1024x3_S1024x3 r (2 : Fin 3))

/-- The column of squared norms of the queries, at row `r`. -/
theorem pay8_at (x0 : Vec Ideal S1x1024x3 .f32) (r : Fin 1024) :
    k0_pay8 (F := Ideal) x0 (ix2 r (0 : Fin 1)) = qn x0 r := by
  show k0_pay5 (F := Ideal) x0 (ix2 r (0 : Fin 1)) * k0_pay5 (F := Ideal) x0 (ix2 r (0 : Fin 1))
      + k0_pay6 (F := Ideal) x0 (ix2 r (0 : Fin 1)) * k0_pay6 (F := Ideal) x0 (ix2 r (0 : Fin 1))
      + k0_pay7 (F := Ideal) x0 (ix2 r (0 : Fin 1)) * k0_pay7 (F := Ideal) x0 (ix2 r (0 : Fin 1)) = _
  rw [pay5_at, pay6_at, pay7_at]
  rfl

/-- Row 0 of a chunk, at lane `l`: coordinate 0 of key lane `l`. -/
theorem row0_at (y : Vec Ideal S1x3x256 .f32) (l : Fin 256) :
    row0 (F := Ideal) y (ix2 (0 : Fin 1) l) = y (ix3 (0 : Fin 1) (0 : Fin 3) l) :=
  (slice2_axis0_apply 0 _ slices_S3x256_o0_0_S1x256 (0 : Fin 1) l (0 : Fin 3) rfl).trans
    (shapeCast_1ab_ab_apply y shapeCasts_S1x3x256_S3x256 (0 : Fin 3) l)

/-- Row 1. -/
theorem row1_at (y : Vec Ideal S1x3x256 .f32) (l : Fin 256) :
    row1 (F := Ideal) y (ix2 (0 : Fin 1) l) = y (ix3 (0 : Fin 1) (1 : Fin 3) l) :=
  (slice2_axis0_apply 1 _ slices_S3x256_o1_0_S1x256 (0 : Fin 1) l (1 : Fin 3) rfl).trans
    (shapeCast_1ab_ab_apply y shapeCasts_S1x3x256_S3x256 (1 : Fin 3) l)

/-- Row 2. -/
theorem row2_at (y : Vec Ideal S1x3x256 .f32) (l : Fin 256) :
    row2 (F := Ideal) y (ix2 (0 : Fin 1) l) = y (ix3 (0 : Fin 1) (2 : Fin 3) l) :=
  (slice2_axis0_apply 2 _ slices_S3x256_o2_0_S1x256 (0 : Fin 1) l (2 : Fin 3) rfl).trans
    (shapeCast_1ab_ab_apply y shapeCasts_S1x3x256_S3x256 (2 : Fin 3) l)

/-- The chunk's matrix at query row `r` and lane `l`: the clamped squared distance, written from the columns' entries in
    row `r` and the chunk's three coordinates of lane `l`. -/
theorem chunkD_apply (v5 v6 v7 v12 : FVec Ideal S1024x1 .f32) (y : Vec Ideal S1x3x256 .f32) (r : Fin 1024) (l : Fin 256) :
    chunkD (F := Ideal) v5 v6 v7 v12 y (ix2 r l)
      = max ((v12 (ix2 r (0 : Fin 1))
              + (y (ix3 (0 : Fin 1) (0 : Fin 3) l) * y (ix3 (0 : Fin 1) (0 : Fin 3) l)
                + y (ix3 (0 : Fin 1) (1 : Fin 3) l) * y (ix3 (0 : Fin 1) (1 : Fin 3) l)
                + y (ix3 (0 : Fin 1) (2 : Fin 3) l) * y (ix3 (0 : Fin 1) (2 : Fin 3) l)))
            - Cert.Chamfer.two
              * (v5 (ix2 r (0 : Fin 1)) * y (ix3 (0 : Fin 1) (0 : Fin 3) l)
                + v6 (ix2 r (0 : Fin 1)) * y (ix3 (0 : Fin 1) (1 : Fin 3) l)
                + v7 (ix2 r (0 : Fin 1)) * y (ix3 (0 : Fin 1) (2 : Fin 3) l)))
          Cert.Chamfer.zero := by
  have c12 := broadcastTo_a1_ab_apply v12 broadcasts_S1024x1_S1024x256 r l
  have c5 := broadcastTo_a1_ab_apply v5 broadcasts_S1024x1_S1024x256 r l
  have c6 := broadcastTo_a1_ab_apply v6 broadcasts_S1024x1_S1024x256 r l
  have c7 := broadcastTo_a1_ab_apply v7 broadcasts_S1024x1_S1024x256 r l
  have r0 := (broadcastTo_1b_ab_apply (row0 (F := Ideal) y) broadcasts_S1x256_S1024x256 r l).trans (row0_at y l)
  have r1 := (broadcastTo_1b_ab_apply (row1 (F := Ideal) y) broadcasts_S1x256_S1024x256 r l).trans (row1_at y l)
  have r2 := (broadcastTo_1b_ab_apply (row2 (F := Ideal) y) broadcasts_S1x256_S1024x256 r l).trans (row2_at y l)
  have rn : broadcastTo S1024x256
        (addf (addf (mulf (row0 (F := Ideal) y) (row0 y)) (mulf (row1 y) (row1 y))) (mulf (row2 y) (row2 y)))
        broadcasts_S1x256_S1024x256 (ix2 r l)
      = y (ix3 (0 : Fin 1) (0 : Fin 3) l) * y (ix3 (0 : Fin 1) (0 : Fin 3) l)
        + y (ix3 (0 : Fin 1) (1 : Fin 3) l) * y (ix3 (0 : Fin 1) (1 : Fin 3) l)
        + y (ix3 (0 : Fin 1) (2 : Fin 3) l) * y (ix3 (0 : Fin 1) (2 : Fin 3) l) := by
    refine (broadcastTo_1b_ab_apply _ broadcasts_S1x256_S1024x256 r l).trans ?_
    show row0 (F := Ideal) y (ix2 (0 : Fin 1) l) * row0 (F := Ideal) y (ix2 (0 : Fin 1) l)
        + row1 (F := Ideal) y (ix2 (0 : Fin 1) l) * row1 (F := Ideal) y (ix2 (0 : Fin 1) l)
        + row2 (F := Ideal) y (ix2 (0 : Fin 1) l) * row2 (F := Ideal) y (ix2 (0 : Fin 1) l) = _
    rw [row0_at, row1_at, row2_at]
  show max
      ((broadcastTo S1024x256 v12 broadcasts_S1024x1_S1024x256 (ix2 r l)
          + broadcastTo S1024x256
              (addf (addf (mulf (row0 (F := Ideal) y) (row0 y)) (mulf (row1 y) (row1 y))) (mulf (row2 y) (row2 y)))
              broadcasts_S1x256_S1024x256 (ix2 r l))
        - Ideal.ofBits .f32 0x40000000#32
          * (broadcastTo S1024x256 v5 broadcasts_S1024x1_S1024x256 (ix2 r l)
                * broadcastTo S1024x256 (row0 (F := Ideal) y) broadcasts_S1x256_S1024x256 (ix2 r l)
              + broadcastTo S1024x256 v6 broadcasts_S1024x1_S1024x256 (ix2 r l)
                * broadcastTo S1024x256 (row1 (F := Ideal) y) broadcasts_S1x256_S1024x256 (ix2 r l)
              + broadcastTo S1024x256 v7 broadcasts_S1024x1_S1024x256 (ix2 r l)
                * broadcastTo S1024x256 (row2 (F := Ideal) y) broadcasts_S1x256_S1024x256 (ix2 r l)))
      (Ideal.ofBits .f32 0x00000000#32) = _
  rw [c12, c5, c6, c7, r0, r1, r2, rn]
  rfl

/-- Lane `l` of the chunk that starts at lane `o` of the key block is lane `o + l` of the block. -/
theorem ld_chunk_at (x1 : Vec Ideal S1x3x1024 .f32) (o : Nat)
    (inb : ∀ a, (![0, 0, o] : Fin 3 → Nat) a + S1x3x256.size a ≤ S1x3x1024.size a) (d : Fin 3) (l : Fin 256) (j : Fin 1024)
    (hj : j.val = o + l.val) :
    (View.ld x1 (Rect.unit ![0, 0, o] ![1, 3, 256] inb) : Vec Ideal S1x3x256 .f32) (ix3 (0 : Fin 1) d l)
      = x1 (ix3 (0 : Fin 1) d j) := by
  show x1 _ = x1 _
  refine congrArg x1 (funext fun a => Fin.ext ?_)
  match a with
  | ⟨0, _⟩ => rfl
  | ⟨1, _⟩ => show 0 + 1 * d.val = d.val; omega
  | ⟨2, _⟩ => show o + 1 * l.val = j.val; omega

/-- So the matrix of the chunk that starts at lane `o`, at query row `r` and lane `l`, is the clamped squared distance between
    query row `r` and key lane `o + l` of the two blocks. -/
theorem chunk_at (x0 : Vec Ideal S1x1024x3 .f32) (x1 : Vec Ideal S1x3x1024 .f32) (o : Nat)
    (inb : ∀ a, (![0, 0, o] : Fin 3 → Nat) a + S1x3x256.size a ≤ S1x3x1024.size a) (r : Fin 1024) (l : Fin 256) (j : Fin 1024)
    (hj : j.val = o + l.val) :
    chunkD (F := Ideal) (k0_pay5 x0) (k0_pay6 x0) (k0_pay7 x0) (k0_pay8 x0)
        (View.ld x1 (Rect.unit ![0, 0, o] ![1, 3, 256] inb)) (ix2 r l) = dblk x0 x1 r j := by
  rw [chunkD_apply, pay5_at, pay6_at, pay7_at, pay8_at, ld_chunk_at x1 o inb 0 l j hj, ld_chunk_at x1 o inb 1 l j hj,
    ld_chunk_at x1 o inb 2 l j hj]
  rfl

/-- The column of row minima by its lower bounds. -/
theorem le_colMin (v : FVec Ideal S1024x256 .f32) (r : Fin 1024) (c : EReal) :
    c ≤ (colMin (F := Ideal) v (ix2 r (0 : Fin 1)) : EReal) ↔ ∀ l : Fin 256, c ≤ (v (ix2 r l) : EReal) :=
  le_rowMin_col v reduces_S1024x256_S1024 (.inl rfl) rfl shapeCasts_S1024_S1024x1 r (0 : Fin 1) c

/-! ## The three facts -/

/-- An extended real is below the column after a key tile, at row `r`, exactly when it is below what the column held
    there and below every clamped squared distance from query row `r` to a key lane of the tile. -/
theorem le_tileMin (x0 : Vec Ideal S1x1024x3 .f32) (x1 : Vec Ideal S1x3x1024 .f32) (acc : Vec Ideal S1024x1 .f32)
    (r : Fin 1024) (c : EReal) :
    c ≤ (Pieces.tileMin (F := Ideal) x0 x1 acc (ix2 r (0 : Fin 1)) : EReal)
      ↔ c ≤ (acc (ix2 r (0 : Fin 1)) : EReal) ∧ ∀ j : Fin 1024, c ≤ dblk x0 x1 r j := by
  rw [tileMin_eq, shapeCast_self]
  show c ≤ min (min (min (min (acc (ix2 r (0 : Fin 1)) : EReal)
            (colMin (F := Ideal) (chunkD (k0_pay5 x0) (k0_pay6 x0) (k0_pay7 x0) (k0_pay8 x0) (chunk0 x1)) (ix2 r (0 : Fin 1))))
            (colMin (F := Ideal) (chunkD (k0_pay5 x0) (k0_pay6 x0) (k0_pay7 x0) (k0_pay8 x0) (chunk1 x1)) (ix2 r (0 : Fin 1))))
            (colMin (F := Ideal) (chunkD (k0_pay5 x0) (k0_pay6 x0) (k0_pay7 x0) (k0_pay8 x0) (chunk2 x1)) (ix2 r (0 : Fin 1))))
            (colMin (F := Ideal) (chunkD (k0_pay5 x0) (k0_pay6 x0) (k0_pay7 x0) (k0_pay8 x0) (chunk3 x1)) (ix2 r (0 : Fin 1))) ↔ _
  rw [le_min_iff, le_min_iff, le_min_iff, le_min_iff, le_colMin, le_colMin, le_colMin, le_colMin]
  constructor
  · rintro ⟨⟨⟨⟨ha, h0⟩, h1⟩, h2⟩, h3⟩
    refine ⟨ha, fun j => ?_⟩
    by_cases c0 : j.val < 256
    · have h := h0 ⟨j.val, c0⟩
      rwa [chunk_at x0 x1 0 inb_S1x3x1024_S1x3x256_0_0_0 r _ j (by show j.val = 0 + j.val; omega)] at h
    by_cases c1 : j.val < 512
    · have h := h1 ⟨j.val - 256, by omega⟩
      rwa [chunk_at x0 x1 256 inb_S1x3x1024_S1x3x256_0_0_256 r _ j (by show j.val = 256 + (j.val - 256); omega)] at h
    by_cases c2 : j.val < 768
    · have h := h2 ⟨j.val - 512, by omega⟩
      rwa [chunk_at x0 x1 512 inb_S1x3x1024_S1x3x256_0_0_512 r _ j (by show j.val = 512 + (j.val - 512); omega)] at h
    · have h := h3 ⟨j.val - 768, by have := j.isLt; omega⟩
      rwa [chunk_at x0 x1 768 inb_S1x3x1024_S1x3x256_0_0_768 r _ j (by show j.val = 768 + (j.val - 768); omega)] at h
  · rintro ⟨ha, hj⟩
    refine ⟨⟨⟨⟨ha, fun l => ?_⟩, fun l => ?_⟩, fun l => ?_⟩, fun l => ?_⟩
    · rw [chunk_at x0 x1 0 inb_S1x3x1024_S1x3x256_0_0_0 r l ⟨0 + l.val, by have := l.isLt; omega⟩ rfl]; exact hj _
    · rw [chunk_at x0 x1 256 inb_S1x3x1024_S1x3x256_0_0_256 r l ⟨256 + l.val, by have := l.isLt; omega⟩ rfl]; exact hj _
    · rw [chunk_at x0 x1 512 inb_S1x3x1024_S1x3x256_0_0_512 r l ⟨512 + l.val, by have := l.isLt; omega⟩ rfl]; exact hj _
    · rw [chunk_at x0 x1 768 inb_S1x3x1024_S1x3x256_0_0_768 r l ⟨768 + l.val, by have := l.isLt; omega⟩ rfl]; exact hj _

/-- The vector the first key tile starts from is `+∞` everywhere. -/
theorem inf_col (i : S1024x1.Idx) : (k0_pay3 (F := Ideal) i : EReal) = ⊤ := by
  show shapeCast S1024x1 (broadcast S1024x1 (Ideal.ofBits .f32 0x7F800000#32)) shapeCasts_S1024x1_S1024x1 i = ⊤
  rw [shapeCast_self]
  exact ofBits_inf_f32

/-- The output block is the column's square root, row by row. -/
theorem sqrt_col (v : Vec Ideal S1024x1 .f32) (r : Fin 1024) :
    (k0_pay2 (F := Ideal) v (ix3 (0 : Fin 1) r (0 : Fin 1)) : EReal) = Ideal.sqrt (v (ix2 r (0 : Fin 1))) :=
  shapeCast_ab_1ab_apply (sqrt (F := Ideal) v) shapeCasts_S1024x1_S1x1024x1 (0 : Fin 1) r (0 : Fin 1)

end Cert.KernelIdeal.Tile

end
-- ==== Proof.Blocks.lean ====
/-
  The blocks the body sees at a grid point, as elements of the two point sets.

  The grid has 2 · 8 · 8 points, the last coordinate running fastest: point `t` is batch `t / 64`, query tile
  `t / 8 % 8` and key tile `t % 8`. The query window's block at `t` is rows `1024 · (t / 8 % 8) …` of batch `t / 64`
  of the first argument; the key window's block is lanes `1024 · (t % 8) …` of the same batch of the second argument
  transposed, so its element at coordinate `d`, lane `j` is coordinate `d` of key `1024 · (t % 8) + j`. Hence the
  clamped squared distance between row `r` and lane `j` of the two blocks is that between query
  `1024 · (t / 8 % 8) + r` and key `1024 · (t % 8) + j` of the batch.
-/
import proofs.«180767_j31044023616212_2_alg».proof.Proof.TileMin
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Tile

variable (m : (ℓ : Loc nD τ sig) → Buf (Elt Ideal) ℓ)

/-- The queries: the first argument as launched. -/
abbrev qs (c : Dev nD) : Cert.Chamfer.Pts := m ((c : Thread nD τ).loc main_arg0)
/-- The keys: the second argument as launched. -/
abbrev ks (c : Dev nD) : Cert.Chamfer.Pts := m ((c : Thread nD τ).loc main_arg1)

theorem hN : cfg0.N = 128 := N_0

/-- The batch of grid point `t`. -/
def bat (t : Fin cfg0.N) : Fin 2 := ⟨t.val / 64, by have := t.isLt; have := hN; omega⟩
/-- Query `r` of the query tile of grid point `t`. -/
def qrow (t : Fin cfg0.N) (r : Fin 1024) : Fin 8192 := ⟨t.val / 8 % 8 * 1024 + r.val, by have := r.isLt; omega⟩
/-- Key `j` of the key tile of grid point `t`. -/
def krow (t : Fin cfg0.N) (j : Fin 1024) : Fin 8192 := ⟨t.val % 8 * 1024 + j.val, by have := j.isLt; omega⟩

/-- The windows' block indices at a grid point, decided over the grid. -/
theorem idx0 : ∀ t : Fin cfg0.N, win0_0.index t 0 = t.val / 64 ∧ win0_0.index t 1 = t.val / 8 % 8 ∧ win0_0.index t 2 = 0 :=
  (by decide +kernel : ∀ t : Fin grid0.N, win0_0.index t 0 = t.val / 64 ∧ win0_0.index t 1 = t.val / 8 % 8 ∧ win0_0.index t 2 = 0)
theorem idx1 : ∀ t : Fin cfg0.N, win0_1.index t 0 = t.val / 64 ∧ win0_1.index t 1 = 0 ∧ win0_1.index t 2 = t.val % 8 :=
  (by decide +kernel : ∀ t : Fin grid0.N, win0_1.index t 0 = t.val / 64 ∧ win0_1.index t 1 = 0 ∧ win0_1.index t 2 = t.val % 8)
theorem idx2 : ∀ t : Fin cfg0.N, win0_2.index t 0 = t.val / 64 ∧ win0_2.index t 1 = t.val / 8 % 8 ∧ win0_2.index t 2 = 0 :=
  (by decide +kernel : ∀ t : Fin grid0.N, win0_2.index t 0 = t.val / 64 ∧ win0_2.index t 1 = t.val / 8 % 8 ∧ win0_2.index t 2 = 0)

/-- The query block at a grid point, element by element. -/
theorem qblk_at (c : Dev nD) (t : Fin cfg0.N) (r : Fin 1024) (d : Fin 3) :
    (iblk m c 0 t : Vec Ideal S1x1024x3 .f32) (ix3 (0 : Fin 1) r d) = qs m c (ix3 (bat t) (qrow t r) d) := by
  unfold iblk
  rw [View.read_apply]
  show V m c main_arg0 _ = _
  rw [V_main_arg0]
  show m (c.tc.loc main_arg0) _ = m (c.tc.loc main_arg0) _
  congr 1
  funext a
  apply Fin.ext
  obtain ⟨h0, h1, h2⟩ := idx0 t
  match a with
  | ⟨0, _⟩ => show win0_0.index t 0 * 1 + 1 * 0 = t.val / 64; rw [h0]; omega
  | ⟨1, _⟩ => show win0_0.index t 1 * 1024 + 1 * r.val = t.val / 8 % 8 * 1024 + r.val; rw [h1]; omega
  | ⟨2, _⟩ => show win0_0.index t 2 * 3 + 1 * d.val = d.val; rw [h2]; omega

/-- The key window's array, as the region finds it, is the second argument with its last two axes exchanged. -/
theorem keysT (c : Dev nD) :
    (V m c main_call0_v0 : S2x3x8192.Idx → EReal)
      = transpose S2x3x8192 [0, 2, 1] (m ((c : Thread nD τ).loc main_arg1)) transposes_S2x8192x3_S2x3x8192_0_2_1 := by
  show StableHlo.after hostOps0 (fun b => m (c, b)) (Proc.devRef .tc main_call0_v0) = _
  after_results
  rfl

/-- The key block at a grid point, element by element. -/
theorem kblk_at (c : Dev nD) (t : Fin cfg0.N) (d : Fin 3) (j : Fin 1024) :
    (iblk m c 1 t : Vec Ideal S1x3x1024 .f32) (ix3 (0 : Fin 1) d j) = ks m c (ix3 (bat t) (krow t j) d) := by
  unfold iblk
  rw [View.read_apply]
  show (V m c main_call0_v0 : S2x3x8192.Idx → EReal) _ = _
  rw [keysT]
  refine Eq.trans ?_ (transpose_ix3_021_apply (m ((c : Thread nD τ).loc main_arg1)) transposes_S2x8192x3_S2x3x8192_0_2_1 (bat t) d (krow t j))
  congr 1
  funext a
  apply Fin.ext
  obtain ⟨h0, h1, h2⟩ := idx1 t
  match a with
  | ⟨0, _⟩ => show win0_1.index t 0 * 1 + 1 * 0 = t.val / 64; rw [h0]; omega
  | ⟨1, _⟩ => show win0_1.index t 1 * 3 + 1 * d.val = d.val; rw [h1]; omega
  | ⟨2, _⟩ => show win0_1.index t 2 * 1024 + 1 * j.val = t.val % 8 * 1024 + j.val; rw [h2]; omega

/-- The clamped squared distance between a row of the query block and a lane of the key block at a grid point is the
    one between the corresponding query and key of the point's batch. -/
theorem dblk_at (c : Dev nD) (t : Fin cfg0.N) (r j : Fin 1024) :
    dblk (iblk m c 0 t) (iblk m c 1 t) r j = Cert.Chamfer.d2 (qs m c) (ks m c) (bat t) (qrow t r) (krow t j) := by
  unfold dblk qn kn ip Cert.Chamfer.d2 Cert.Chamfer.nsq Cert.Chamfer.dotp
  rw [qblk_at m c t r 0, qblk_at m c t r 1, qblk_at m c t r 2, kblk_at m c t 0 j, kblk_at m c t 1 j, kblk_at m c t 2 j]

end Cert.KernelIdeal.Blocks

end
-- ==== Proof.Running.lean ====
/-
  The running minimum across the key tiles.

  For a fixed batch and query tile the eight grid points `t` with `t % 8 = 0 … 7` go through the eight key tiles in
  order, and the scratch column carries the minimum from one to the next: reset to `+∞` at the first, lowered by each
  tile's 1024 clamped squared distances. So after the point of key tile `q` the column, at query row `r`, has exactly
  the lower bounds of the distances from that query to all keys of tiles `0 … q` — by induction along the grid, the
  step being one tile (`Tile.le_tileMin`) read at the point's blocks (`Blocks.dblk_at`). After the eighth tile these
  are all 8192 keys of the batch: the column is the row minimum of the specification, and the block the last point
  stores is its square root, the nearest-key distance.
-/
import proofs.«180767_j31044023616212_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.KernelIdeal.Tile Cert.KernelIdeal.Pieces Cert.KernelIdeal.Blocks

variable (m : (ℓ : Loc nD τ sig) → Buf (Elt Ideal) ℓ)

/-- At the first key tile of a row of tiles the scratch ends at the tile's minima over `+∞`. -/
theorem scratch_first (c : Dev nD) (t : Fin cfg0.N) (h0 : t.val % 8 = 0) :
    (outsAt0 m c t.val t.isLt).2 = tileMin (iblk m c 0 t) (iblk m c 1 t) (k0_pay3 (F := Ideal)) := by
  have h1 : ¬t.val % 8 = 7 := by omega
  rw [outsAt0_A m c t h0 h1]
  dsimp only
  exact scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At every later key tile it ends at the tile's minima over what the point before left. -/
theorem scratch_next (c : Dev nD) (t : Fin cfg0.N) (h0 : ¬t.val % 8 = 0) :
    (outsAt0 m c t.val t.isLt).2
      = tileMin (iblk m c 0 t) (iblk m c 1 t) (outsAt0 m c (t.val - 1) (Nat.lt_of_le_of_lt (Nat.sub_le _ _) t.isLt)).2 := by
  by_cases h1 : t.val % 8 = 7
  · rw [outsAt0_C m c t h0 h1]
    dsimp only
    exact scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At the last key tile the output block is the square root of the column the point leaves, reshaped. -/
theorem out_last (c : Dev nD) (t : Fin cfg0.N) (h1 : t.val % 8 = 7) :
    (outsAt0 m c t.val t.isLt).1 = k0_pay2 (F := Ideal) (outsAt0 m c t.val t.isLt).2 := by
  have h0 : ¬t.val % 8 = 0 := by omega
  rw [outsAt0_C m c t h0 h1]
  dsimp only
  exact (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (congrArg (k0_pay2 (F := Ideal)) (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm)

/-- Key `j` of key tile `q`. -/
def keyAt (q : ℕ) (hq : q < 8) (j : Fin 1024) : Fin 8192 := ⟨q * 1024 + j.val, by have := j.isLt; omega⟩

theorem krow_eq (t : Fin cfg0.N) (j : Fin 1024) (q : ℕ) (hq : q < 8) (h : t.val % 8 = q) : krow t j = keyAt q hq j :=
  Fin.ext (by show t.val % 8 * 1024 + j.val = q * 1024 + j.val; rw [h])

/-- THE INVARIANT: after grid point `n` the scratch column at row `r` has the lower bounds of the clamped squared
    distances from the point's query `r` to every key of the key tiles `0 … n % 8` of the point's batch. -/
theorem col_le (c : Dev nD) : ∀ (n : ℕ) (hn : n < cfg0.N) (r : Fin 1024) (x : EReal),
    x ≤ ((outsAt0 m c n hn).2 (ix2 r (0 : Fin 1)) : EReal) ↔
      ∀ (q : ℕ) (hq : q < 8), q ≤ n % 8 → ∀ j : Fin 1024,
        x ≤ Cert.Chamfer.d2 (qs m c) (ks m c) (bat ⟨n, hn⟩) (qrow ⟨n, hn⟩ r) (keyAt q hq j) := by
  have first : ∀ (t : Fin cfg0.N) (h0 : t.val % 8 = 0) (r : Fin 1024) (x : EReal),
      x ≤ ((outsAt0 m c t.val t.isLt).2 (ix2 r (0 : Fin 1)) : EReal) ↔
        ∀ (q : ℕ) (hq : q < 8), q ≤ t.val % 8 → ∀ j : Fin 1024,
          x ≤ Cert.Chamfer.d2 (qs m c) (ks m c) (bat t) (qrow t r) (keyAt q hq j) := by
    intro t h0 r x
    rw [scratch_first m c t h0, le_tileMin, inf_col]
    constructor
    · rintro ⟨-, h⟩ q hq hle j
      have hq0 : t.val % 8 = q := by omega
      rw [← krow_eq t j q hq hq0, ← dblk_at]
      exact h j
    · intro h
      refine ⟨le_top, fun j => ?_⟩
      rw [dblk_at, krow_eq t j 0 (by omega) h0]
      exact h 0 (by omega) (by omega) j
  intro n
  induction n with
  | zero => intro hn r x; exact first ⟨0, hn⟩ rfl r x
  | succ n ih =>
    intro hn r x
    by_cases h0 : (n + 1) % 8 = 0
    · exact first ⟨n + 1, hn⟩ h0 r x
    · have hn' : n < cfg0.N := Nat.lt_of_succ_lt hn
      have hb : bat ⟨n + 1, hn⟩ = bat ⟨n, hn'⟩ := Fin.ext (by show (n + 1) / 64 = n / 64; omega)
      have hr : qrow ⟨n + 1, hn⟩ r = qrow ⟨n, hn'⟩ r := Fin.ext (by show (n + 1) / 8 % 8 * 1024 + r.val = n / 8 % 8 * 1024 + r.val; omega)
      rw [scratch_next m c ⟨n + 1, hn⟩ h0, le_tileMin]
      have ih' := ih hn' r x
      constructor
      · rintro ⟨hp, h⟩ q hq hle j
        by_cases hlast : q = (n + 1) % 8
        · rw [← krow_eq ⟨n + 1, hn⟩ j q hq hlast.symm, ← dblk_at]
          exact h j
        · rw [hb, hr]
          exact (ih'.mp hp) q hq (by omega) j
      · intro h
        refine ⟨ih'.mpr fun q hq hle j => ?_, fun j => ?_⟩
        · rw [← hb, ← hr]
          exact h q hq (by omega) j
        · rw [dblk_at, krow_eq ⟨n + 1, hn⟩ j ((n + 1) % 8) (by omega) rfl]
          exact h ((n + 1) % 8) (by omega) (le_refl _) j

/-- After the last key tile the column is the row minimum of the specification. -/
theorem col_last (c : Dev nD) (t : Fin cfg0.N) (h1 : t.val % 8 = 7) (r : Fin 1024) :
    ((outsAt0 m c t.val t.isLt).2 (ix2 r (0 : Fin 1)) : EReal) = Cert.Chamfer.rowMin (qs m c) (ks m c) (bat t) (qrow t r) := by
  refine Cert.Chamfer.eq_rowMin _ _ _ _ _ fun x => ?_
  rw [col_le m c t.val t.isLt r x]
  constructor
  · intro h k
    have hk := k.isLt
    have e : k = keyAt (k.val / 1024) (by omega) ⟨k.val % 1024, by omega⟩ :=
      Fin.ext (by show k.val = k.val / 1024 * 1024 + k.val % 1024; omega)
    rw [e]
    exact h (k.val / 1024) (by omega) (by omega) _
  · intro h q hq _ j
    exact h _

/-- The block the last key tile's point stores holds the nearest-key distances of the point's queries. -/
theorem out_last_at (c : Dev nD) (t : Fin cfg0.N) (h1 : t.val % 8 = 7) (r : Fin 1024) :
    ((outsAt0 m c t.val t.isLt).1 (ix3 (0 : Fin 1) r (0 : Fin 1)) : EReal)
      = Cert.Chamfer.nearest (qs m c) (ks m c) (bat t) (qrow t r) := by
  rw [out_last m c t h1, sqrt_col, col_last m c t h1 r]
  rfl

end Cert.KernelIdeal.Running

end
-- ==== Proof.OutArray.lean ====
/-
  The kernel's output array after the region.

  The output window's block at grid point `t` is rows `1024 · (t / 8 % 8) …` of batch `t / 64` of the 2 × 8192 × 1
  array, and only the points of the last key tile (`t % 8 = 7`) write it back. What such a point writes is the block
  of nearest-key distances of its queries (`Running.out_last_at`), that is the block of ONE function of the array
  index, `dist`: at `(b, n, 0)` the nearest-key distance of query `n` of batch `b`. Every index of the array lies in
  the block of exactly such a point — the one of its batch and its row's tile — so the array ends holding `dist`.
-/
import proofs.«180767_j31044023616212_2_alg».proof.Proof.Running
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.KernelIdeal.Blocks Cert.KernelIdeal.Running

variable (m : (ℓ : Loc nD τ sig) → Buf (Elt Ideal) ℓ)

/-- The nearest-key distance of every query, laid out as the output array: at `(b, n, 0)` that of query `n` of
    batch `b`. -/
def dist (c : Dev nD) : S2x8192x1.Idx → EReal :=
  fun i => Cert.Chamfer.nearest (qs m c) (ks m c) (i 0) (i 1)

/-- What a point of the last key tile writes back is its block of `dist`. -/
theorem flushed_eq (c : Dev nD) (t : Fin cfg0.N) (hf : (cfg0.win 2).flush t = true) :
    (dats m 0 c).flushed 2 t = ((cfg0.win 2).blk t).view.read (Elt Ideal) (dist m c) := by
  have h7 : t.val % 8 = 7 := (flush0_2 t).mp hf
  show (cfg0.win 2).cut (grid0.coords t) ((dats m 0 c).after 2 t) = _
  rw [after0_2]
  funext (y : S1x1024x1.Idx)
  have hr : (y 1).val < 1024 := (y 1).isLt
  have hy : y = ix3 (0 : Fin 1) (⟨(y 1).val, hr⟩ : Fin 1024) (0 : Fin 1) := by
    funext a
    apply Fin.ext
    match a with
    | ⟨0, _⟩ => show (y 0).val = 0; have : (y 0).val < 1 := (y 0).isLt; omega
    | ⟨1, _⟩ => rfl
    | ⟨2, _⟩ => show (y 2).val = 0; have : (y 2).val < 1 := (y 2).isLt; omega
  rw [hy]
  refine (out_last_at m c t h7 ⟨(y 1).val, hr⟩).trans ?_
  obtain ⟨h0, h1, h2⟩ := idx2 t
  have e0 : (((cfg0.win 2).blk t).view.emb (ix3 (0 : Fin 1) (⟨(y 1).val, hr⟩ : Fin 1024) (0 : Fin 1)) 0 : Fin 2) = bat t :=
    Fin.ext (by show win0_2.index t 0 * 1 + 1 * 0 = t.val / 64; rw [h0]; omega)
  have e1 : (((cfg0.win 2).blk t).view.emb (ix3 (0 : Fin 1) (⟨(y 1).val, hr⟩ : Fin 1024) (0 : Fin 1)) 1 : Fin 8192)
      = qrow t ⟨(y 1).val, hr⟩ :=
    Fin.ext (by show win0_2.index t 1 * 1024 + 1 * (y 1).val = t.val / 8 % 8 * 1024 + (y 1).val; rw [h1]; omega)
  show Cert.Chamfer.nearest (qs m c) (ks m c) (bat t) (qrow t ⟨(y 1).val, hr⟩)
    = Cert.Chamfer.nearest (qs m c) (ks m c)
        (((cfg0.win 2).blk t).view.emb (ix3 (0 : Fin 1) (⟨(y 1).val, hr⟩ : Fin 1024) (0 : Fin 1)) 0)
        (((cfg0.win 2).blk t).view.emb (ix3 (0 : Fin 1) (⟨(y 1).val, hr⟩ : Fin 1024) (0 : Fin 1)) 1)
  rw [e0, e1]

/-- An index of the array is in point `t`'s block iff each coordinate is in the block's range on its axis. -/
theorem mem_blk (t : Fin cfg0.N) (i : S2x8192x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_call0_v1).slice (win0_2.rect t)).set ↔ _
  rw [View.set_slice_whole, Rect.mem_set_unit]
  exact Iff.rfl

/-- Every index of the array is in the block of the last-key-tile point of its batch and its row's tile. -/
theorem covered (i : S2x8192x1.Idx) :
    ∃ t : Fin cfg0.N, (cfg0.win 2).flush t = true ∧ i ∈ ((cfg0.win 2).blk t).view.set := by
  have hi0 : (i 0).val < 2 := (i 0).isLt
  have hi1 : (i 1).val < 8192 := (i 1).isLt
  have hi2 : (i 2).val < 1 := (i 2).isLt
  have hNN : cfg0.N = 128 := N_0
  refine ⟨⟨((i 0).val * 8 + (i 1).val / 1024) * 8 + 7, by omega⟩, (flush0_2 _).mpr (by show (((i 0).val * 8 + (i 1).val / 1024) * 8 + 7) % 8 = 7; omega), ?_⟩
  rw [mem_blk]
  obtain ⟨h0, h1, h2⟩ := idx2 ⟨((i 0).val * 8 + (i 1).val / 1024) * 8 + 7, by omega⟩
  intro a
  match a with
  | ⟨0, _⟩ =>
    show win0_2.index _ 0 * 1 ≤ (i 0).val ∧ (i 0).val < win0_2.index _ 0 * 1 + 1
    rw [h0]; show (((i 0).val * 8 + (i 1).val / 1024) * 8 + 7) / 64 * 1 ≤ (i 0).val ∧ (i 0).val < (((i 0).val * 8 + (i 1).val / 1024) * 8 + 7) / 64 * 1 + 1
    omega
  | ⟨1, _⟩ =>
    show win0_2.index _ 1 * 1024 ≤ (i 1).val ∧ (i 1).val < win0_2.index _ 1 * 1024 + 1024
    rw [h1]; show (((i 0).val * 8 + (i 1).val / 1024) * 8 + 7) / 8 % 8 * 1024 ≤ (i 1).val ∧ (i 1).val < (((i 0).val * 8 + (i 1).val / 1024) * 8 + 7) / 8 % 8 * 1024 + 1024
    omega
  | ⟨2, _⟩ =>
    show win0_2.index _ 2 * 1 ≤ (i 2).val ∧ (i 2).val < win0_2.index _ 2 * 1 + 1
    rw [h2]; omega

/-- The output array ends holding the nearest-key distances. -/
theorem final (c : Dev nD) : (dats m 0 c).arrAt 2 cfg0.N = dist m c :=
  (dats m 0 c).arrAt_eq_of_cover 2 (dist m c) (flushed_eq m c) (covered)

end Cert.KernelIdeal.OutArray

end
-- ==== Proof.Tail.lean ====
/-
  The kernel's result: the host sum of the output array.

  After the region the kernel's entry point adds every element of the 2 × 8192 × 1 output array to the zero word.
  The array holds the nearest-key distances (`OutArray.final`), and a sum over an index set whose last axis has one
  coordinate is the double sum over the first two: the result is `Cert.Chamfer.total` of the two arguments. The run
  theorem re-posts the generated frame run with this value, the arguments unchanged.
-/
import proofs.«180767_j31044023616212_2_alg».proof.Proof.OutArray
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Blocks

variable (m : (ℓ : Loc nD τ sig) → Buf (Elt Ideal) ℓ) (ρ : Dev nD → PrngReg)

/-- The sum of the nearest-key distances laid out as the output array, from the zero word, is the specification's
    total. -/
theorem sum_dist (c : Dev nD) (i : S_.Idx) :
    Host.reduceAdd (F := Ideal) (OutArray.dist m c) (constant S_ .f32 0x00000000#32) reducesTo_S2x8192x1_S_d0_1_2 h_S_ i
      = Cert.Chamfer.total (qs m c) (ks m c) := by
  simp only [Host.reduceAdd, Ideal.hostReduceAdd_def]
  rw [Ideal.hostReduceAdd_total reducesTo_S2x8192x1_S_d0_1_2 (fun b => b.elim0) (OutArray.dist m c) _ i,
    Cert.Chamfer.sum_idx3u]
  rfl

/-- What the lines after the region leave in the result buffer. -/
theorem tail_val (c : Dev nD) :
    Pipeline.afterTail₀ cfgs (dats m) 0 (V0 m) [hostOps1] c main_v0 = fun _ => Cert.Chamfer.total (qs m c) (ks m c) := by
  unfold Pipeline.afterTail₀
  show StableHlo.after hostOps1 _ (Proc.devRef .tc main_v0) = _
  after_results
  rw [(Pipeline.withArrays_arr spec0 launch0.win.arr_inj c _ _ 2).trans (OutArray.final m c)]
  exact funext fun i => sum_dist m c i

/-- THE KERNEL'S RUN, READ: every weakly fair execution terminates with the result at the specification's total of the
    two arguments, and the arguments unchanged. -/
theorem run : θ_run defs (onTc (τ := τ) (main (F := Ideal))) ⟨m, fun _ => 0, ρ⟩ fun r => ∀ c : Dev nD,
      r.2.mem ((c.tc : Thread nD τ).loc main_v0) = (fun _ => Cert.Chamfer.total (qs m c) (ks m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans (tail_val m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Tail

end
-- ==== Proof.SqrtMin.lean ====
/-
  The one law that joins the two programs. The kernel keeps a running minimum of SQUARED distances and takes
  one square root per row at the end; the reference takes the square root of every pairwise squared distance and
  then the minimum over the row. On the extended reals the ideal square root is `√x` for `0 ≤ x`, `⊤` at `⊤` and
  `⊥` at every negative argument and at `⊥`: an order-preserving map of the whole extended line. An order-preserving
  map of a linear order commutes with `min`, and so with the minimum of any finite family folded from `⊤`.
-/
import Idealize.ShloMosaic.PureOps.Ideal

noncomputable section

namespace Cert.Chamfer

open Idealize.ShloMosaic

/-- The ideal square root preserves the order of the extended reals: below zero it is constantly `⊥`, on the
    nonnegative reals it is the real square root, and `⊤` goes to `⊤`. -/
theorem sqrt_mono : Monotone Ideal.sqrt := by
  intro x y hxy
  induction x using EReal.rec with
  | bot => simp
  | top =>
    have hy : y = ⊤ := top_le_iff.mp hxy
    subst hy; exact le_rfl
  | coe r =>
    induction y using EReal.rec with
    | bot => exact absurd hxy (by simp)
    | top => simp
    | coe s =>
      have hrs : r ≤ s := EReal.coe_le_coe_iff.mp hxy
      simp only [Ideal.sqrt_coe]
      split_ifs with h1 h2 h2
      · exact le_rfl
      · exact bot_le
      · exfalso; linarith
      · exact EReal.coe_le_coe_iff.mpr (Real.sqrt_le_sqrt hrs)

/-- The square root of the smaller of two extended reals is the smaller of their square roots. -/
theorem sqrt_min (x y : EReal) : Ideal.sqrt (min x y) = min (Ideal.sqrt x) (Ideal.sqrt y) :=
  sqrt_mono.map_min

/-- The square root of a finite minimum folded from `⊤` is the minimum, folded from `⊤`, of the square roots. -/
theorem sqrt_fold_min {ι : Type*} (s : Finset ι) (f : ι → EReal) :
    Ideal.sqrt (s.fold min ⊤ f) = s.fold min ⊤ (fun k => Ideal.sqrt (f k)) := by
  classical
  induction s using Finset.induction_on with
  | empty => simp
  | insert a s ha ih => rw [Finset.fold_insert ha, Finset.fold_insert ha, sqrt_min, ih]

end Cert.Chamfer

end
-- ==== Proof.RefTotal.lean ====
/-
  The reference program's result is the specification `Cert.Chamfer.total`.

  The reference computes, for every batch `b`, query `n` and key `k`, the number
  `sqrt (max ((|a_n|² + |s_k|²) - 2 · ⟨a_n, s_k⟩) 0)`, takes for each query the minimum over the keys starting from
  `+∞`, and adds the 2 · 8192 minima to the zero word. Read at an index, every stage below the minimum depends on
  one element of each operand, so the element under the square root is `d2 a s b n k` once the three-term sums
  are written out. The minimum over the last axis is a fold of `min` from `⊤` over the 8192 key coordinates;
  since the square root is order preserving it moves outside that fold, which leaves `nearest a s b n`. The
  total sum over the rank-2 index set is the double sum over its two coordinates.
-/
import proofs.«180767_j31044023616212_2_alg».proof.Proof.Gen.ReferenceIdeal.Read
import proofs.«180767_j31044023616212_2_alg».proof.Proof.Nearest
import proofs.«180767_j31044023616212_2_alg».proof.Proof.SqrtMin

noncomputable section

open scoped BigOperators

namespace Cert.Chamfer.Ref

open Cert.ReferenceIdeal Cert.ReferenceIdeal.Gen Cert.ReferenceIdeal.Read
open Idealize.ShloMosaic Idealize.ShloMosaic.ValueIdx

/-- A point set as the reference program takes it. -/
abbrev In : Type := (⟨S2x8192x3, .f32⟩ : BufTy).Contents (Elt Ideal)

/-- The squared norms of the queries: the three-term sum from the zero word. -/
theorem v1_at (a : In) (b : Fin 2) (n : Fin 8192) :
    val_main_v1 (F := Ideal) a (ix2 b n) = nsq a b n := by
  rw [val_main_v1_apply, val_main_cst_apply, Ideal.ofBits_def, Ideal.ofBits_zero_f32, zero_add, Fin.sum_univ_three]
  simp only [val_main_v0_apply, Ideal.mulf_def]
  have e : ∀ d : Fin 3, idx_main_v1 (ix2 b n) d = ix3 b n d := fun d => funext fun c => Fin.ext (by
    match c with | ⟨0, _⟩ => rfl | ⟨1, _⟩ => rfl | ⟨2, _⟩ => rfl)
  rw [e 0, e 1, e 2]
  rfl

/-- The squared norms of the keys likewise. -/
theorem v3_at (s : In) (b : Fin 2) (k : Fin 8192) :
    val_main_v3 (F := Ideal) s (ix2 b k) = nsq s b k := by
  rw [val_main_v3_apply, val_main_cst_0_apply, Ideal.ofBits_def, Ideal.ofBits_zero_f32, zero_add, Fin.sum_univ_three]
  simp only [val_main_v2_apply, Ideal.mulf_def]
  have e : ∀ d : Fin 3, idx_main_v3 (ix2 b k) d = ix3 b k d := fun d => funext fun c => Fin.ext (by
    match c with | ⟨0, _⟩ => rfl | ⟨1, _⟩ => rfl | ⟨2, _⟩ => rfl)
  rw [e 0, e 1, e 2]
  rfl

/-- The inner products: the contraction over the three coordinates. -/
theorem v4_at (a s : In) (b : Fin 2) (n k : Fin 8192) :
    val_main_v4 (F := Ideal) a s (ix3 b n k) = dotp a s b n k := by
  rw [val_main_v4_apply, Fin.sum_univ_three]
  have el : ∀ d : Fin 3, lidx_main_v4 (ix3 b n k) d = ix3 b n d := fun d => funext fun c => Fin.ext (by
    match c with | ⟨0, _⟩ => rfl | ⟨1, _⟩ => rfl | ⟨2, _⟩ => rfl)
  have er : ∀ d : Fin 3, ridx_main_v4 (ix3 b n k) d = ix3 b k d := fun d => funext fun c => Fin.ext (by
    match c with | ⟨0, _⟩ => rfl | ⟨1, _⟩ => rfl | ⟨2, _⟩ => rfl)
  rw [el 0, el 1, el 2, er 0, er 1, er 2]
  rfl

/-- The element the minimum is taken over: the square root of the clamped squared distance. -/
theorem v15_at (a s : In) (b : Fin 2) (n k : Fin 8192) :
    val_main_v15 (F := Ideal) a s (ix3 b n k) = Ideal.sqrt (d2 a s b n k) := by
  rw [val_main_v15_apply, Ideal.hostUnary_sqrt_def, val_main_v14_apply, Ideal.maximumf_def, val_main_v12_apply,
    Ideal.subf_def, val_main_v9_apply, Ideal.addf_def, val_main_v11_apply, Ideal.mulf_def, val_main_v7_apply,
    val_main_v5_apply, val_main_v8_apply, val_main_v6_apply, val_main_v10_apply, val_main_cst_1_apply,
    val_main_v13_apply, val_main_cst_2_apply, Ideal.ofBits_def, Ideal.ofBits_def]
  have e7 : idx_main_v5 (idx_main_v7 (ix3 b n k)) = ix2 b n := funext fun c => Fin.ext (by
    match c with | ⟨0, _⟩ => rfl | ⟨1, _⟩ => rfl)
  have e8 : idx_main_v6 (idx_main_v8 (ix3 b n k)) = ix2 b k := funext fun c => Fin.ext (by
    match c with | ⟨0, _⟩ => rfl | ⟨1, _⟩ => rfl)
  rw [e7, e8, v1_at, v3_at, v4_at]
  rfl

/-- The shape fact the last-axis coordinates are inserted by. -/
theorem red : S2x8192x8192.Reduces [2] S2x8192 := by decide

/-- The row index (b, n) with key coordinate `k` inserted on the last axis is (b, n, k). -/
theorem lift_at (b : Fin 2) (n : Fin 8192) (k : Fin (S2x8192x8192.size 2)) :
    red.lift (ix2 b n) k = ix3 b n (⟨k.val, k.isLt⟩ : Fin 8192) := by
  funext c; apply Fin.ext
  match c with
  | ⟨0, _⟩ => rfl
  | ⟨1, _⟩ => rfl
  | ⟨2, _⟩ => rfl

/-- The minimum over the keys, from `+∞`, of the square roots is the nearest-key distance. -/
theorem v16_at (a s : In) (b : Fin 2) (n : Fin 8192) :
    val_main_v16 (F := Ideal) a s (ix2 b n) = nearest a s b n := by
  unfold val_main_v16
  rw [Host.reduce_eq_fold_single FloatOps.minimumf _ _ reducesTo_S2x8192x8192_S2x8192_d2 red h_S_]
  have htop : val_main_cst_3 (F := Ideal) (Shape.Idx.first h_S_) = (⊤ : EReal) := by
    rw [val_main_cst_3_apply, Ideal.ofBits_def]; simp [Ideal.ofBits, Ideal.ieee]
  have hf : (val_main_v15 (F := Ideal) a s ∘ red.lift (ix2 b n)) = fun k : Fin 8192 => Ideal.sqrt (d2 a s b n k) :=
    funext fun k => (congrArg (val_main_v15 (F := Ideal) a s) (lift_at b n k)).trans (v15_at a s b n _)
  rw [htop, hf]
  exact (sqrt_fold_min Finset.univ _).symm

/-- The reference's result, at its one index, is the specification. -/
theorem ref_total_apply (a s : In) (i : S_.Idx) : val_main_v17 (F := Ideal) a s i = total a s := by
  rw [val_main_v17_apply, val_main_cst_4_apply, Ideal.ofBits_def, sum_idx2]
  unfold total zero
  exact congrArg (_ + ·) (Finset.sum_congr rfl fun b _ => Finset.sum_congr rfl fun n _ => v16_at a s b n)

/-- The reference's result is the constant function at the specification. -/
theorem ref_total (a s : In) : val_main_v17 (F := Ideal) a s = fun _ => total a s :=
  funext fun i => ref_total_apply a s i

end Cert.Chamfer.Ref

end
-- ==== Proof.lean ====
/-
  One-sided Chamfer distance: the tiled kernel against the direct formula, on the extended reals.

  Two batches of 8192 points in three coordinates, queries `a` and keys `s`. Both programs compute, for every query,
  the distance to its nearest key of the same batch, and add these 2 · 8192 distances to the zero word; the squared
  distance between a query and a key is `max ((|a_n|² + |s_k|²) - 2 · ⟨a_n, s_k⟩) 0` in both.

  The reference takes the square root of every one of the 8192 · 8192 clamped squared distances of a batch and then the
  minimum over the keys. The kernel goes through the keys in eight tiles of 1024, each in four chunks of 256 lanes,
  keeps for every query a running minimum of the SQUARED distances — reset to `+∞` at the first tile — and takes one
  square root per query after the last tile. Three facts join the two:
    · a minimum taken tile by tile and chunk by chunk is the minimum over all keys (a minimum is determined by its lower
      bounds: `Running.col_le`, `Tile.le_tileMin`, `Chamfer.eq_rowMin`);
    · the ideal square root preserves the order of the whole extended line, so it commutes with a minimum
      (`Chamfer.sqrt_fold_min`): no finiteness of the inputs is used anywhere;
    · three-term sums in the order `(x + y) + z`, and a sum over an index set with a trailing unit axis, are the same
      sums on both sides (`Chamfer.Ref.ref_total`, `Tail.sum_dist`).
  So both end at `Chamfer.total a s` (Proof/Nearest.lean): the kernel by reading its frame run's carried scratch and output
  array (Proof/Pieces, TileMin, Blocks, Running, OutArray, Tail), the reference by reading its run one operation at a time
  (Proof/RefTotal). The idealization rewrote nothing, and the three frames are the programs' runs with the results dropped.
-/
import proofs.«180767_j31044023616212_2_alg».proof.Defs
import proofs.«180767_j31044023616212_2_alg».proof.Proof.Gen.Kernel
import proofs.«180767_j31044023616212_2_alg».proof.Proof.Gen.Kernel.Skeleton
import proofs.«180767_j31044023616212_2_alg».proof.Proof.Gen.Kernel.Launch
import proofs.«180767_j31044023616212_2_alg».proof.Proof.Gen.Kernel.Points
import proofs.«180767_j31044023616212_2_alg».proof.Proof.Gen.Kernel.Frame
import proofs.«180767_j31044023616212_2_alg».proof.Proof.Gen.KernelIdeal
import proofs.«180767_j31044023616212_2_alg».proof.Proof.Gen.KernelIdeal.Skeleton
import proofs.«180767_j31044023616212_2_alg».proof.Proof.Gen.KernelIdeal.Launch
import proofs.«180767_j31044023616212_2_alg».proof.Proof.Gen.KernelIdeal.Points
import proofs.«180767_j31044023616212_2_alg».proof.Proof.Gen.KernelIdeal.Frame
import proofs.«180767_j31044023616212_2_alg».proof.Proof.Gen.ReferenceIdeal
import proofs.«180767_j31044023616212_2_alg».proof.Proof.Gen.ReferenceIdeal.Run
import proofs.«180767_j31044023616212_2_alg».proof.Proof.Gen.ReferenceIdeal.Read
import proofs.«180767_j31044023616212_2_alg».proof.Proof.Gen.Pre_finite_inputs
import proofs.«180767_j31044023616212_2_alg».proof.Proof.Tail
import proofs.«180767_j31044023616212_2_alg».proof.Proof.RefTotal
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two point sets, the kernel ends at the total of nearest-key distances of its
    arguments and the reference at the total of its own: one extended real. -/
theorem algebraic : Cert.algebraic_KernelIdeal_ReferenceIdeal := by
  intro m ρ m' ρ' _ hagree
  refine ⟨fun c => fun _ => Cert.Chamfer.total (Cert.KernelIdeal.Blocks.qs m c) (Cert.KernelIdeal.Blocks.ks m c),
    Cert.KernelIdeal.Tail.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.Chamfer.Ref.ref_total, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
